-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 56
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x64, .f32⟩
  | .hbm, ⟨55, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RunRead.lean ====
/-
  The kernel program's run, keeping the result buffer.

  Every weakly fair execution of the program terminates, without a fault, with the argument arrays as launched and the
  result buffer at the contents the last segment boundary gives it.  The run is the library's run of a program made of
  host stretches and kernel calls, over the segments, proof data and thread states of the program's frame proof; only the
  reading of the final state differs: the result buffer is read beside the nine arguments.
-/
import proofs.«136554_j31310311587980_1_alg».proof.Proof.Gen.KernelIdeal.Frame

set_option maxRecDepth 16384

noncomputable section

namespace Cert.Sage.RunRead

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_read : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Sage.RunRead

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.Dense.lean ====
/-
  The dense update of one layer, entry by entry.

  For node features `X` and aggregated neighbour features `A` (both [a, n]), weights `Ws`, `Wn` ([n, b]) and a
  bias row `bias` ([1, b]), the update at node p and output channel q is

      (Σ_k X[p,k] · Ws[k,q]  +  Σ_k A[p,k] · Wn[k,q])  +  bias[0,q],

  the two products added first and the bias last.  `layerRelu` clips it below at the float zero; `layerLin` is the
  update itself.  Everything is on the extended reals; the extents are variables.
-/
import Idealize.ShloMosaic.Lib.ValueIdx
import Idealize.ShloMosaic.PureOps.Ideal

noncomputable section

open scoped BigOperators

namespace Cert.Sage

open Idealize.ShloMosaic Idealize.ShloMosaic.ValueIdx

/-- The update at node `p`, channel `q`. -/
def denseAt {a n b : ℕ} (X A : FVec Ideal ⟨2, ![a, n]⟩ .f32) (Ws Wn : FVec Ideal ⟨2, ![n, b]⟩ .f32)
    (bias : FVec Ideal ⟨2, ![1, b]⟩ .f32) (p : Fin a) (q : Fin b) : EReal :=
  ((∑ k : Fin n, X (ix2 p k) * Ws (ix2 k q)) + ∑ k : Fin n, A (ix2 p k) * Wn (ix2 k q)) + bias (ix2 (0 : Fin 1) q)

/-- The update of every node, clipped below at zero. -/
def layerRelu {a n b : ℕ} (X A : FVec Ideal ⟨2, ![a, n]⟩ .f32) (Ws Wn : FVec Ideal ⟨2, ![n, b]⟩ .f32)
    (bias : FVec Ideal ⟨2, ![1, b]⟩ .f32) : FVec Ideal ⟨2, ![a, b]⟩ .f32 :=
  fun i => max (denseAt X A Ws Wn bias (i 0) (i 1)) (Ideal.ofBits .f32 0x00000000#32)

/-- The update of every node. -/
def layerLin {a n b : ℕ} (X A : FVec Ideal ⟨2, ![a, n]⟩ .f32) (Ws Wn : FVec Ideal ⟨2, ![n, b]⟩ .f32)
    (bias : FVec Ideal ⟨2, ![1, b]⟩ .f32) : FVec Ideal ⟨2, ![a, b]⟩ .f32 :=
  fun i => denseAt X A Ws Wn bias (i 0) (i 1)

theorem layerRelu_apply {a n b : ℕ} (X A : FVec Ideal ⟨2, ![a, n]⟩ .f32) (Ws Wn : FVec Ideal ⟨2, ![n, b]⟩ .f32)
    (bias : FVec Ideal ⟨2, ![1, b]⟩ .f32) (p : Fin a) (q : Fin b) :
    layerRelu X A Ws Wn bias (ix2 p q) = max (denseAt X A Ws Wn bias p q) (Ideal.ofBits .f32 0x00000000#32) := rfl

theorem layerLin_apply {a n b : ℕ} (X A : FVec Ideal ⟨2, ![a, n]⟩ .f32) (Ws Wn : FVec Ideal ⟨2, ![n, b]⟩ .f32)
    (bias : FVec Ideal ⟨2, ![1, b]⟩ .f32) (p : Fin a) (q : Fin b) :
    layerLin X A Ws Wn bias (ix2 p q) = denseAt X A Ws Wn bias p q := rfl

end Cert.Sage

end
-- ==== Proof.Body.lean ====
/-
  What one grid point's body stores, entry by entry.

  A point of either call loads a block of 5000 node rows of the features and of the aggregated features, the two
  weight matrices and the bias row, and stores  x·Ws + agg·Wn + bias  (the first call clipped below at zero) for its
  5000 nodes.  On the extended reals the narrowing of the operands to bf16 is the identity and a matrix product
  accumulated onto zeros is the plain sum over the contracted axis, so the stored block is the dense update of the
  loaded blocks (`Cert.Sage.denseAt`).
-/
import proofs.«136554_j31310311587980_1_alg».proof.Proof.Gen.KernelIdeal.Skeleton
import proofs.«136554_j31310311587980_1_alg».proof.Proof.LibPlainMatmul
import proofs.«136554_j31310311587980_1_alg».proof.Proof.Dense
import Idealize.ShloMosaic.Lib.Pipeline.Value
import Idealize.ShloMosaic.Lib.ValueIdx
import Idealize.ShloMosaic.Lib.ValueLayout

noncomputable section

namespace Cert.Sage

open Cert.KernelIdeal Cert.KernelIdeal.Gen Idealize.ShloMosaic Idealize.ShloMosaic.TcCoe Idealize.ShloMosaic.ValueIdx

/-- The first call's stored block at (p, q): the dense update of the loaded blocks, clipped below at zero. -/
theorem pay0_apply (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q) = max (denseAt x0 x1 x2 x3 x4 p q) (Ideal.ofBits .f32 0x00000000#32) := by
  unfold k0_pay1 denseAt
  rw [maximumf_apply, addf_apply, addf_apply, broadcast_apply]
  rw [shapeCast_self, shapeCast_self, broadcastTo_1b_ab_apply]
  refine congrArg₂ max (congrArg₂ (· + ·) (congrArg₂ (· + ·) ?_ ?_) rfl) rfl
  · exact Cert.PlainMatmul.zero_acc_apply dot_S5000x128_S128x128_S5000x128_1_0_0_1_n_n_wf none _ _ p q
  · exact Cert.PlainMatmul.zero_acc_apply dot_S5000x128_S128x128_S5000x128_1_0_0_1_n_n_wf none _ _ p q

/-- The second call's stored block at (p, q): the dense update of the loaded blocks. -/
theorem pay1_apply (x0 x1 : FVec Ideal S5000x128 .f32) (x2 x3 : FVec Ideal S128x64 .f32) (x4 : FVec Ideal S1x64 .f32)
    (p : Fin 5000) (q : Fin 64) :
    k1_pay1 (F := Ideal) x0 x1 x2 x3 x4 (ix2 p q) = denseAt x0 x1 x2 x3 x4 p q := by
  unfold k1_pay1 denseAt
  rw [addf_apply, addf_apply]
  rw [shapeCast_self, shapeCast_self, shapeCast_self, broadcastTo_1b_ab_apply]
  refine congrArg₂ (· + ·) (congrArg₂ (· + ·) ?_ ?_) rfl
  · exact Cert.PlainMatmul.zero_acc_apply dot_S5000x128_S128x64_S5000x64_1_0_0_1_n_n_wf none _ _ p q
  · exact Cert.PlainMatmul.zero_acc_apply dot_S5000x128_S128x64_S5000x64_1_0_0_1_n_n_wf none _ _ p q

end Cert.Sage

end
-- ==== Proof.Region0.lean ====
/-
  The first call's result array, as one function of the arrays the call finds.

  The call runs on a grid of 20 points.  Point t loads rows 5000·t … 5000·t + 4999 of the features and of the
  aggregated features, the two whole weight matrices and the whole bias row, and writes back rows 5000·t … 5000·t + 4999
  of the result.  The 20 blocks tile the 100000 rows, so after the call entry (r, q) of the result is the dense update
  of node r, clipped below at zero (`Cert.Sage.layerRelu`), of the arrays as the call found them.
-/
import proofs.«136554_j31310311587980_1_alg».proof.Proof.Gen.KernelIdeal.Frame
import proofs.«136554_j31310311587980_1_alg».proof.Proof.Body
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Sage.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block each window shows at point t: the row windows move with t, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result as one function of the five arrays the call reads. -/
abbrev G (X A : FVec Ideal S100000x128 .f32) (Ws Wn : FVec Ideal S128x128 .f32) (b2 : FVec Ideal S1x128 .f32) :
    FVec Ideal S100000x128 .f32 :=
  layerRelu (a := 100000) (n := 128) (b := 128) X A Ws Wn b2

/-- A stored block is the matching rows of `G`, given that the loaded blocks are the matching rows of the arrays. -/
theorem block_eq (x0 x1 : FVec Ideal S5000x128 .f32) (x2 x3 : FVec Ideal S128x128 .f32) (x4 : FVec Ideal S1x128 .f32)
    (X A : FVec Ideal S100000x128 .f32) (Ws Wn : FVec Ideal S128x128 .f32) (b2 : FVec Ideal S1x128 .f32)
    (p : Fin 5000) (q : Fin 128) (r : Fin 100000)
    (h0 : ∀ k : Fin 128, x0 (ix2 p k) = X (ix2 r k)) (h1 : ∀ k : Fin 128, x1 (ix2 p k) = A (ix2 r k))
    (h2 : x2 = Ws) (h3 : x3 = Wn) (h4 : x4 = b2) :
    k0_pay1 (F := Ideal) x0 x1 x2 x3 x4 (ix2 p q) = G X A Ws Wn b2 (ix2 r q) := by
  rw [pay0_apply]
  show _ = max (denseAt (a := 100000) (n := 128) (b := 128) X A Ws Wn b2 r q) (Ideal.ofBits .f32 0x00000000#32)
  subst h2 h3 h4
  unfold denseAt
  refine congrArg₂ max (congrArg₂ (· + ·) (congrArg₂ (· + ·) ?_ ?_) rfl) rfl
  · exact Finset.sum_congr rfl fun k _ => by rw [h0 k]
  · exact Finset.sum_congr rfl fun k _ => by rw [h1 k]

/-- Window 0's block at point t is rows 5000·t … of the features. -/
theorem iblk_0 (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → Elt Ideal .f32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- Window 1's block at point t is rows 5000·t … of the aggregated features. -/
theorem iblk_1 (c : Dev nD) (t : Fin cfg0.N) (x : S5000x128.Idx) (k : S100000x128.Idx)
    (hk0 : (k 0).val = 5000 * t.val + (x 0).val) (hk1 : (k 1).val = (x 1).val) :
    (iblk0 V c 1 t : Vec Ideal S5000x128 .f32) x = (V c main_v20 : S100000x128.Idx → Elt Ideal .f32) k := by
  obtain ⟨-, -, e0, e1, -⟩ := idx_facts t
  unfold iblk0
  rw [View.read_apply]
  show V c main_v20 _ = V c main_v20 _
  congr 1
  funext a
  apply Fin.ext
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- Window 2's block is the whole first weight matrix, at every point. -/
theorem iblk_2 (c : Dev nD) (t : Fin cfg0.N) :
    (iblk0 V c 2 t : Vec Ideal S128x128 .f32) = (V c main_arg3 : S128x128.Idx → Elt Ideal .f32) := by
  obtain ⟨-, -, -, -, e0, e1, -⟩ := idx_facts t
  funext x
  unfold iblk0
  rw [View.read_apply]
  show V c main_arg3 _ = V c main_arg3 x
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- Window 3's block is the whole second weight matrix. -/
theorem iblk_3 (c : Dev nD) (t : Fin cfg0.N) :
    (iblk0 V c 3 t : Vec Ideal S128x128 .f32) = (V c main_arg4 : S128x128.Idx → Elt Ideal .f32) := by
  obtain ⟨-, -, -, -, -, -, e0, e1, -⟩ := idx_facts t
  funext x
  unfold iblk0
  rw [View.read_apply]
  show V c main_arg4 _ = V c main_arg4 x
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- Window 4's block is the whole bias row. -/
theorem iblk_4 (c : Dev nD) (t : Fin cfg0.N) :
    (iblk0 V c 4 t : Vec Ideal S1x128 .f32) = (V c main_v21 : S1x128.Idx → Elt Ideal .f32) := by
  obtain ⟨-, -, -, -, -, -, -, -, e0, e1, -⟩ := idx_facts t
  funext x
  unfold iblk0
  rw [View.read_apply]
  show V c main_v21 _ = V c main_v21 x
  congr 1
  funext a
  apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- What point t stores at (p, q) of its block is entry (5000·t + p, q) of `G` of the arrays the call finds. -/
theorem stored_at (c : Dev nD) (t : Fin cfg0.N) (j : S5000x128.Idx) :
    k0_pay1 (F := Ideal) (iblk0 V c 0 t) (iblk0 V c 1 t) (iblk0 V c 2 t) (iblk0 V c 3 t) (iblk0 V c 4 t) j
      = G (V c main_arg0) (V c main_v20) (V c main_arg3) (V c main_arg4) (V c main_v21) (((cfg0.win 5).blk t).view.emb j) := by
  obtain ⟨p, q, rfl⟩ : ∃ (p : Fin 5000) (q : Fin 128), j = ix2 p q := ⟨j 0, j 1, eq_ix2 j⟩
  obtain ⟨-, -, -, -, -, -, -, -, -, -, e0, e1⟩ := idx_facts t
  have ht : t.val < 20 := lt_of_lt_of_eq t.isLt N_0
  have hr : 5000 * t.val + p.val < 100000 := by have := p.isLt; omega
  have hemb : ((cfg0.win 5).blk t).view.emb (ix2 p q) = ix2 (⟨5000 * t.val + p.val, hr⟩ : Fin 100000) q := by
    funext a
    apply Fin.ext
    match a with
    | ⟨0, _⟩ => show win0_5.index t 0 * 5000 + 1 * p.val = 5000 * t.val + p.val; rw [e0]; omega
    | ⟨1, _⟩ => show win0_5.index t 1 * 128 + 1 * q.val = q.val; rw [e1]; omega
  rw [hemb]
  exact block_eq (iblk0 V c 0 t) (iblk0 V c 1 t) (iblk0 V c 2 t) (iblk0 V c 3 t) (iblk0 V c 4 t)
    (V c main_arg0) (V c main_v20) (V c main_arg3) (V c main_arg4) (V c main_v21) p q ⟨5000 * t.val + p.val, hr⟩
    (fun k => iblk_0 V c t (ix2 p k) (ix2 (⟨5000 * t.val + p.val, hr⟩ : Fin 100000) k) rfl rfl)
    (fun k => iblk_1 V c t (ix2 p k) (ix2 (⟨5000 * t.val + p.val, hr⟩ : Fin 100000) k) rfl rfl)
    (iblk_2 V c t) (iblk_3 V c t) (iblk_4 V c t)

/-- WHAT POINT t WRITES BACK is block t of `G` of the arrays the call finds. -/
theorem flushed_eq (c : Dev nD) (t : Fin cfg0.N) :
    (dat0 V c).flushed 5 t = ((cfg0.win 5).blk t).view.read (Elt Ideal)
      (G (V c main_arg0) (V c main_v20) (V c main_arg3) (V c main_arg4) (V c main_v21)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  exact stored_at V c t j

/-- Every entry of the result is in the block of the point its row falls in. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have htN : (i 0).val / 5000 < cfg0.N := by show (i 0).val / 5000 < grid0.N; rw [hN]; omega
  obtain ⟨-, -, -, -, -, -, -, -, -, -, e0, e1⟩ := idx_facts ⟨(i 0).val / 5000, htN⟩
  refine ⟨⟨(i 0).val / 5000, htN⟩, flush0_5 _, ?_⟩
  show i ∈ ((View.whole main_v22).slice (win0_5.rect ⟨(i 0).val / 5000, htN⟩)).set
  rw [View.set_slice_whole, Rect.mem_set_unit]
  intro a
  match a with
  | ⟨0, _⟩ =>
    show win0_5.index ⟨(i 0).val / 5000, htN⟩ 0 * 5000 ≤ (i 0).val ∧ (i 0).val < win0_5.index ⟨(i 0).val / 5000, htN⟩ 0 * 5000 + 5000
    rw [e0]; show (i 0).val / 5000 * 5000 ≤ (i 0).val ∧ (i 0).val < (i 0).val / 5000 * 5000 + 5000; omega
  | ⟨1, _⟩ =>
    show win0_5.index ⟨(i 0).val / 5000, htN⟩ 1 * 128 ≤ (i 1).val ∧ (i 1).val < win0_5.index ⟨(i 0).val / 5000, htN⟩ 1 * 128 + 128
    rw [e1]; omega

/-- THE RESULT ARRAY after the call: `G` of the arrays the call finds. -/
theorem final (c : Dev nD) :
    (dat0 V c).arrAt 5 cfg0.N = G (V c main_arg0) (V c main_v20) (V c main_arg3) (V c main_arg4) (V c main_v21) :=
  (dat0 V c).arrAt_eq_of_cover 5 _ (fun t _ => flushed_eq V c t) cover

end Cert.Sage.Region0

end
-- ==== Proof.Region1.lean ====
/-
  The second call's result array, as one function of the arrays the call finds.

  The call runs on a grid of 20 points.  Point t loads rows 5000·t … 5000·t + 4999 of the hidden features and of their
  aggregation, the two whole weight matrices and the whole bias row, and writes back rows 5000·t … 5000·t + 4999 of the
  result.  The 20 blocks tile the 100000 rows, so after the call entry (r, q) of the result is the dense update of
  node r (`Cert.Sage.layerLin`) of the arrays as the call found them.
-/
import proofs.«136554_j31310311587980_1_alg».proof.Proof.Gen.KernelIdeal.Frame
import proofs.«136554_j31310311587980_1_alg».proof.Proof.Body
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Sage.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block each window shows at point t: the row windows move with t, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The result as one function of the five arrays the call reads. -/
abbrev G (X A : FVec Ideal S100000x128 .f32) (Ws Wn : FVec Ideal S128x64 .f32) (b2 : FVec Ideal S1x64 .f32) :
    FVec Ideal S100000x64 .f32 :=
  layerLin (a := 100000) (n := 128) (b := 64) X A Ws Wn b2

/-- A stored block is the matching rows of `G`, given that the loaded blocks are the matching rows of the arrays. -/
theorem block_eq (x0 x1 : FVec Ideal S5000x128 .f32) (x2 x3 : FVec Ideal S128x64 .f32) (x4 : FVec Ideal S1x64 .f32)
    (X A : FVec Ideal S100000x128 .f32) (Ws Wn : FVec Ideal S128x64 .f32) (b2 : FVec Ideal S1x64 .f32)
    (p : Fin 5000) (q : Fin 64) (r : Fin 100000)
    (h0 : ∀ k : Fin 128, x0 (ix2 p k) = X (ix2 r k)) (h1 : ∀ k : Fin 128, x1 (ix2 p k) = A (ix2 r k))
    (h2 : x2 = Ws) (h3 : x3 = Wn) (h4 : x4 = b2) :
    k1_pay1 (F := Ideal) x0 x1 x2 x3 x4 (ix2 p q) = G X A Ws Wn b2 (ix2 r q) := by
  rw [pay1_apply]
  show _ = denseAt (a := 100000) (n := 128) (b := 64) X A Ws Wn b2 r q
  subst h2 h3 h4
  unfold denseAt
  refine congrArg₂ (· + ·) (congrArg₂ (· + ·) ?_ ?_) rfl
  · exact Finset.sum_congr rfl fun k _ => by rw [h0 k]
  · exact Finset.sum_congr rfl fun k _ => by rw [h1 k]

/-- Window 0's block at point t is rows 5000·t … of the features. -/
theorem iblk_0 (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v22 : S100000x128.Idx → Elt Ideal .f32) k := by
  obtain ⟨e0, e1, -⟩ := idx_facts t
  unfold iblk1
  rw [View.read_apply]
  show V c main_v22 _ = V c main_v22 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Window 1's block at point t is rows 5000·t … of the aggregated features. -/
theorem iblk_1 (c : Dev nD) (t : Fin cfg1.N) (x : S5000x128.Idx) (k : S100000x128.Idx)
    (hk0 : (k 0).val = 5000 * t.val + (x 0).val) (hk1 : (k 1).val = (x 1).val) :
    (iblk1 V c 1 t : Vec Ideal S5000x128 .f32) x = (V c main_v34 : S100000x128.Idx → Elt Ideal .f32) k := by
  obtain ⟨-, -, e0, e1, -⟩ := idx_facts t
  unfold iblk1
  rw [View.read_apply]
  show V c main_v34 _ = V c main_v34 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- Window 2's block is the whole first weight matrix, at every point. -/
theorem iblk_2 (c : Dev nD) (t : Fin cfg1.N) :
    (iblk1 V c 2 t : Vec Ideal S128x64 .f32) = (V c main_arg6 : S128x64.Idx → Elt Ideal .f32) := by
  obtain ⟨-, -, -, -, e0, e1, -⟩ := idx_facts t
  funext x
  unfold iblk1
  rw [View.read_apply]
  show V c main_arg6 _ = V c main_arg6 x
  congr 1
  funext a
  apply Fin.ext
  match a with
  | ⟨0, _⟩ => show win1_2.index t 0 * 128 + 1 * (x 0).val = (x 0).val; rw [e0]; omega
  | ⟨1, _⟩ => show win1_2.index t 1 * 64 + 1 * (x 1).val = (x 1).val; rw [e1]; omega

/-- Window 3's block is the whole second weight matrix. -/
theorem iblk_3 (c : Dev nD) (t : Fin cfg1.N) :
    (iblk1 V c 3 t : Vec Ideal S128x64 .f32) = (V c main_arg7 : S128x64.Idx → Elt Ideal .f32) := by
  obtain ⟨-, -, -, -, -, -, e0, e1, -⟩ := idx_facts t
  funext x
  unfold iblk1
  rw [View.read_apply]
  show V c main_arg7 _ = V c main_arg7 x
  congr 1
  funext a
  apply Fin.ext
  match a with
  | ⟨0, _⟩ => show win1_3.index t 0 * 128 + 1 * (x 0).val = (x 0).val; rw [e0]; omega
  | ⟨1, _⟩ => show win1_3.index t 1 * 64 + 1 * (x 1).val = (x 1).val; rw [e1]; omega

/-- Window 4's block is the whole bias row. -/
theorem iblk_4 (c : Dev nD) (t : Fin cfg1.N) :
    (iblk1 V c 4 t : Vec Ideal S1x64 .f32) = (V c main_v35 : S1x64.Idx → Elt Ideal .f32) := by
  obtain ⟨-, -, -, -, -, -, -, -, e0, e1, -⟩ := idx_facts t
  funext x
  unfold iblk1
  rw [View.read_apply]
  show V c main_v35 _ = V c main_v35 x
  congr 1
  funext a
  apply Fin.ext
  match a with
  | ⟨0, _⟩ => show win1_4.index t 0 * 1 + 1 * (x 0).val = (x 0).val; rw [e0]; omega
  | ⟨1, _⟩ => show win1_4.index t 1 * 64 + 1 * (x 1).val = (x 1).val; rw [e1]; omega

/-- What point t stores at (p, q) of its block is entry (5000·t + p, q) of `G` of the arrays the call finds. -/
theorem stored_at (c : Dev nD) (t : Fin cfg1.N) (j : S5000x64.Idx) :
    k1_pay1 (F := Ideal) (iblk1 V c 0 t) (iblk1 V c 1 t) (iblk1 V c 2 t) (iblk1 V c 3 t) (iblk1 V c 4 t) j
      = G (V c main_v22) (V c main_v34) (V c main_arg6) (V c main_arg7) (V c main_v35) (((cfg1.win 5).blk t).view.emb j) := by
  obtain ⟨p, q, rfl⟩ : ∃ (p : Fin 5000) (q : Fin 64), j = ix2 p q := ⟨j 0, j 1, eq_ix2 j⟩
  obtain ⟨-, -, -, -, -, -, -, -, -, -, e0, e1⟩ := idx_facts t
  have ht : t.val < 20 := lt_of_lt_of_eq t.isLt N_1
  have hr : 5000 * t.val + p.val < 100000 := by have := p.isLt; omega
  have hemb : ((cfg1.win 5).blk t).view.emb (ix2 p q) = ix2 (⟨5000 * t.val + p.val, hr⟩ : Fin 100000) q := by
    funext a
    apply Fin.ext
    match a with
    | ⟨0, _⟩ => show win1_5.index t 0 * 5000 + 1 * p.val = 5000 * t.val + p.val; rw [e0]; omega
    | ⟨1, _⟩ => show win1_5.index t 1 * 64 + 1 * q.val = q.val; rw [e1]; omega
  rw [hemb]
  exact block_eq (iblk1 V c 0 t) (iblk1 V c 1 t) (iblk1 V c 2 t) (iblk1 V c 3 t) (iblk1 V c 4 t)
    (V c main_v22) (V c main_v34) (V c main_arg6) (V c main_arg7) (V c main_v35) p q ⟨5000 * t.val + p.val, hr⟩
    (fun k => iblk_0 V c t (ix2 p k) (ix2 (⟨5000 * t.val + p.val, hr⟩ : Fin 100000) k) rfl rfl)
    (fun k => iblk_1 V c t (ix2 p k) (ix2 (⟨5000 * t.val + p.val, hr⟩ : Fin 100000) k) rfl rfl)
    (iblk_2 V c t) (iblk_3 V c t) (iblk_4 V c t)

/-- WHAT POINT t WRITES BACK is block t of `G` of the arrays the call finds. -/
theorem flushed_eq (c : Dev nD) (t : Fin cfg1.N) :
    (dat1 V c).flushed 5 t = ((cfg1.win 5).blk t).view.read (Elt Ideal)
      (G (V c main_v22) (V c main_v34) (V c main_arg6) (V c main_arg7) (V c main_v35)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  funext j
  exact stored_at V c t j

/-- Every entry of the result is in the block of the point its row falls in. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := N_1
  have htN : (i 0).val / 5000 < cfg1.N := by show (i 0).val / 5000 < grid1.N; rw [hN]; omega
  obtain ⟨-, -, -, -, -, -, -, -, -, -, e0, e1⟩ := idx_facts ⟨(i 0).val / 5000, htN⟩
  refine ⟨⟨(i 0).val / 5000, htN⟩, flush1_5 _, ?_⟩
  show i ∈ ((View.whole main_v36).slice (win1_5.rect ⟨(i 0).val / 5000, htN⟩)).set
  rw [View.set_slice_whole, Rect.mem_set_unit]
  intro a
  match a with
  | ⟨0, _⟩ =>
    show win1_5.index ⟨(i 0).val / 5000, htN⟩ 0 * 5000 ≤ (i 0).val ∧ (i 0).val < win1_5.index ⟨(i 0).val / 5000, htN⟩ 0 * 5000 + 5000
    rw [e0]; show (i 0).val / 5000 * 5000 ≤ (i 0).val ∧ (i 0).val < (i 0).val / 5000 * 5000 + 5000; omega
  | ⟨1, _⟩ =>
    show win1_5.index ⟨(i 0).val / 5000, htN⟩ 1 * 64 ≤ (i 1).val ∧ (i 1).val < win1_5.index ⟨(i 0).val / 5000, htN⟩ 1 * 64 + 64
    rw [e1]; omega

/-- THE RESULT ARRAY after the call: `G` of the arrays the call finds. -/
theorem final (c : Dev nD) :
    (dat1 V c).arrAt 5 cfg1.N = G (V c main_v22) (V c main_v34) (V c main_arg6) (V c main_arg7) (V c main_v35) :=
  (dat1 V c).arrAt_eq_of_cover 5 _ (fun t _ => flushed_eq V c t) cover

end Cert.Sage.Region1

end
-- ==== Proof.LibRecipScale.lean ====
/-
  Scaling by a reciprocal taken first, on the extended reals.

  The quotient `Ideal.div x d` is `x · d⁻¹` whenever `d` is not zero, and so is the product of `x` with the
  quotient `Ideal.div 1 d`: the two agree for EVERY extended real `x` (the infinities included) and every
  divisor that is not zero — nothing about `d` being finite is used.  A maximum with one is such a divisor.
-/
import Idealize.ShloMosaic.PureOps.Ideal

noncomputable section

namespace Cert.RecipScale

open Idealize.ShloMosaic

/-- Multiplying by the reciprocal `1 / d` is dividing by `d`, for a divisor that is not zero. -/
theorem mul_div_one (x d : EReal) (hd : d ≠ 0) : x * Ideal.div 1 d = Ideal.div x d := by
  unfold Ideal.div
  rw [if_neg hd, if_neg hd, one_mul]

/-- A maximum with one is at least one, hence not zero. -/
theorem max_one_ne_zero (s : EReal) : max s 1 ≠ 0 :=
  ne_of_gt (lt_of_lt_of_le zero_lt_one (le_max_right s 1))

end Cert.RecipScale

end
-- ==== Proof.MeanAgg.lean ====
/-
  The mean aggregation over incoming edges, in its two spellings.

  Both programs gather the source row of every edge, add the gathered rows into their destination rows, and scale
  each destination row by its in-degree clipped below at one.  One spelling multiplies the summed rows by the
  reciprocal `1 / deg`, computed once per node; the other divides the summed rows by `deg`.  Since
  `deg = max(count, 1)` is never zero the two agree on every extended real, whatever the summed entry is: the
  gather and the two scatters are carried as they stand and never opened.
-/
import proofs.«136554_j31310311587980_1_alg».proof.Proof.Gen.KernelIdeal
import proofs.«136554_j31310311587980_1_alg».proof.Proof.LibRecipScale
import Idealize.ShloMosaic.Lib.Pipeline.Value
import Idealize.ShloMosaic.Lib.ValueIdx
import Idealize.ShloMosaic.Lib.IdealHost

noncomputable section

namespace Cert.Sage

open Cert.KernelIdeal Cert.KernelIdeal.Gen Idealize.ShloMosaic Idealize.ShloMosaic.TcCoe Idealize.ShloMosaic.ValueIdx

/-- Edge endpoints. -/
abbrev Edges := IVec S1600000 32
/-- Node features, 128 wide. -/
abbrev Feat := FVec Ideal S100000x128 .f32
/-- One number per node. -/
abbrev PerNode := FVec Ideal S100000 .f32

/-- The per-node vector of ones. -/
def onesN : PerNode :=
  broadcastInDim S100000 ![] bcast_S_S100000 (constant (F := Ideal) S_ .f32 0x3F800000#32)

/-- The in-degree of every node (ones added into the destination of every edge), clipped below at one. -/
def degree (dst : Edges) : PerNode :=
  maximumf
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    onesN

/-- The source row of every edge as a column of row numbers, a negative number counted from the end. -/
def edgeRows (src : Edges) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of `X` gathered along the edges and added into their destination rows. -/
def summed (X : Feat) (src dst : Edges) : Feat :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 X (edgeRows src))

/-- A per-node number repeated along its node's row: [n] → [n, 1] → [n, 128]. -/
def spread (v : PerNode) : Feat :=
  broadcastInDim S100000x128 ![0, 1] bcast_S100000x1_S100000x128_0_1
    (broadcastInDim S100000x1 ![0] bcast_S100000_S100000x1_0 v)

/-- The mean, by the reciprocal: summed rows times `1 / deg`. -/
def meanByRecip (X : Feat) (src dst : Edges) : Feat :=
  mulf (summed X src dst) (spread (Host.divf (F := Ideal) onesN (degree dst)))

/-- The mean, by the quotient: summed rows over `deg`. -/
def meanByQuot (X : Feat) (src dst : Edges) : Feat :=
  Host.divf (F := Ideal) (summed X src dst) (spread (degree dst))

/-- The node a feature entry belongs to. -/
abbrev nodeOf (i : S100000x128.Idx) : S100000.Idx := fun a => match a with
  | ⟨0, _⟩ => ⟨(i 0).val, (i 0).isLt⟩
/-- The same as an index of the one-column array. -/
abbrev nodeCol (i : S100000x128.Idx) : S100000x1.Idx := fun a => match a with
  | ⟨0, _⟩ => ⟨(i 0).val, (i 0).isLt⟩
  | ⟨1, _⟩ => ⟨0, Nat.one_pos⟩
abbrev colNode (i : S100000x1.Idx) : S100000.Idx := fun a => match a with
  | ⟨0, _⟩ => ⟨(i 0).val, (i 0).isLt⟩

/-- A spread number read at an entry is its node's number. -/
theorem spread_apply (v : PerNode) (i : S100000x128.Idx) : spread v i = v (nodeOf i) := by
  unfold spread
  rw [broadcastInDim_apply _ bcast_S100000x1_S100000x128_0_1 _ i (nodeCol i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ bcast_S100000_S100000x1_0 v (nodeCol i) (nodeOf i) (fun a => match a with
    | ⟨0, _⟩ => by show (i 0).val = if (100000 : Nat) = 1 then 0 else (i 0).val; rw [if_neg (by decide)])

/-- The host's quotient of two arrays, read at an entry. -/
theorem hostDivf_apply {s : Shape} {φ : FTy} (a b : FVec Ideal s φ) (i : s.Idx) :
    Host.divf (F := Ideal) a b i = Ideal.div (a i) (b i) := rfl

/-- The clipped in-degree of a node is never zero. -/
theorem degree_ne_zero (dst : Edges) (j : S100000.Idx) : degree dst j ≠ 0 := by
  unfold degree
  rw [maximumf_apply]
  have h1 : onesN j = 1 := by
    unfold onesN
    rw [broadcastInDim_apply _ bcast_S_S100000 _ j ix0 (fun a => a.elim0), constant_apply, Ideal.ofBits_one_f32]
  rw [h1]
  exact Cert.RecipScale.max_one_ne_zero _

/-- Scaling by the reciprocal of the clipped in-degree IS dividing by it: the two means are one array. -/
theorem meanByRecip_eq_meanByQuot (X : Feat) (src dst : Edges) : meanByRecip X src dst = meanByQuot X src dst := by
  funext i
  unfold meanByRecip meanByQuot
  generalize summed X src dst = s
  rw [mulf_apply, spread_apply, hostDivf_apply, hostDivf_apply, spread_apply]
  have h1 : onesN (nodeOf i) = 1 := by
    unfold onesN
    rw [broadcastInDim_apply _ bcast_S_S100000 _ (nodeOf i) ix0 (fun a => a.elim0), constant_apply, Ideal.ofBits_one_f32]
  rw [h1]
  exact Cert.RecipScale.mul_div_one _ _ (degree_ne_zero dst (nodeOf i))

end Cert.Sage

end
-- ==== Proof.Result.lean ====
/-
  The network's result as one function of its nine arguments.

  Two layers.  The hidden layer is the dense update of the features and of their mean aggregation over incoming edges,
  clipped below at zero; the result is the dense update of the hidden layer and of ITS mean aggregation.  The bias
  vectors enter as one-row arrays.
-/
import proofs.«136554_j31310311587980_1_alg».proof.Proof.Dense
import proofs.«136554_j31310311587980_1_alg».proof.Proof.MeanAgg

noncomputable section

namespace Cert.Sage

open Idealize.ShloMosaic

/-- The hidden layer: the dense update of the features and their mean aggregation, clipped below at zero. -/
def hiddenOf (x0 : Feat) (x1 x2 : Edges) (x3 x4 : FVec Ideal Cert.KernelIdeal.S128x128 .f32)
    (x5 : FVec Ideal Cert.KernelIdeal.S128 .f32) : Feat :=
  layerRelu (a := 100000) (n := 128) (b := 128) x0 (meanByQuot x0 x1 x2) x3 x4
    (shapeCast Cert.KernelIdeal.S1x128 x5 Cert.KernelIdeal.Gen.shapeCasts_S128_S1x128)

/-- The result: the dense update of the hidden layer and its mean aggregation. -/
def resultOf (x0 : Feat) (x1 x2 : Edges) (x3 x4 : FVec Ideal Cert.KernelIdeal.S128x128 .f32)
    (x5 : FVec Ideal Cert.KernelIdeal.S128 .f32) (x6 x7 : FVec Ideal Cert.KernelIdeal.S128x64 .f32)
    (x8 : FVec Ideal Cert.KernelIdeal.S64 .f32) : FVec Ideal Cert.KernelIdeal.S100000x64 .f32 :=
  layerLin (a := 100000) (n := 128) (b := 64) (hiddenOf x0 x1 x2 x3 x4 x5) (meanByQuot (hiddenOf x0 x1 x2 x3 x4 x5) x1 x2) x6 x7
    (shapeCast Cert.KernelIdeal.S1x64 x8 Cert.KernelIdeal.Gen.shapeCasts_S64_S1x64)

end Cert.Sage

end
-- ==== Proof.KernelRun.lean ====
/-
  The kernel program's run, with its result read.

  The program is a stretch of host operations (the clipped in-degree and its reciprocal, the first mean aggregation by
  that reciprocal, the bias as a row), the first call, a second stretch (the mean aggregation of the first call's
  result, the second bias as a row) and the second call.  Its result buffer ends at what the second call leaves, which
  is the dense update of what the second stretch leaves; walking the buffers back to the launch memory gives the result
  as `Cert.Sage.resultOf` of the nine arguments, once the mean by the reciprocal is read as the mean by the quotient.
-/
import proofs.«136554_j31310311587980_1_alg».proof.Proof.Gen.KernelIdeal.Frame
import proofs.«136554_j31310311587980_1_alg».proof.Proof.Region0
import proofs.«136554_j31310311587980_1_alg».proof.Proof.Region1
import proofs.«136554_j31310311587980_1_alg».proof.Proof.MeanAgg
import proofs.«136554_j31310311587980_1_alg».proof.Proof.Result
import Idealize.ShloMosaic.Lib.StableHlo.Run
import Idealize.ShloMosaic.Lib.Pipeline.Value

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (Dat Cfg Window BodyObligation cellOf)

namespace Cert.Sage.Run

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## What the first call finds -/

theorem V1_arg0 (c : Dev nD) : V1 (F := Ideal) m ρ c main_arg0 = m ((c : Thread nD τ).loc main_arg0) := by
  show StableHlo.after hostOps0 (W0 m ρ c) (Proc.devRef .tc main_arg0) = _
  after_results_simp <;> rfl
theorem V1_arg3 (c : Dev nD) : V1 (F := Ideal) m ρ c main_arg3 = m ((c : Thread nD τ).loc main_arg3) := by
  show StableHlo.after hostOps0 (W0 m ρ c) (Proc.devRef .tc main_arg3) = _
  after_results_simp <;> rfl
theorem V1_arg4 (c : Dev nD) : V1 (F := Ideal) m ρ c main_arg4 = m ((c : Thread nD τ).loc main_arg4) := by
  show StableHlo.after hostOps0 (W0 m ρ c) (Proc.devRef .tc main_arg4) = _
  after_results_simp <;> rfl
/-- The aggregated features the first call finds: the mean by the reciprocal of the launch features. -/
theorem V1_mean (c : Dev nD) : V1 (F := Ideal) m ρ c main_v20
    = meanByRecip (m ((c : Thread nD τ).loc main_arg0)) (m ((c : Thread nD τ).loc main_arg1)) (m ((c : Thread nD τ).loc main_arg2)) := by
  show StableHlo.after hostOps0 (W0 m ρ c) (Proc.devRef .tc main_v20) = _
  after_results_simp <;> rfl
/-- The bias row the first call finds. -/
theorem V1_bias (c : Dev nD) : V1 (F := Ideal) m ρ c main_v21
    = shapeCast S1x128 (m ((c : Thread nD τ).loc main_arg5)) shapeCasts_S128_S1x128 := by
  show StableHlo.after hostOps0 (W0 m ρ c) (Proc.devRef .tc main_v21) = _
  after_results_simp <;> rfl

/-! ## What the first call leaves, and what is untouched by it -/

/-- The first call's result: the hidden layer of the launch arguments. -/
theorem hidden_eq (c : Dev nD) : W2 (F := Ideal) m ρ c (Proc.devRef .tc main_v22)
    = hiddenOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 5).trans ?_
  rw [Region0.final (V1 m ρ) c, V1_arg0, V1_mean, V1_arg3, V1_arg4, V1_bias, meanByRecip_eq_meanByQuot]
  rfl

theorem W2_arg1 (c : Dev nD) : W2 (F := Ideal) m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)
theorem W2_arg2 (c : Dev nD) : W2 (F := Ideal) m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)
theorem W2_arg6 (c : Dev nD) : W2 (F := Ideal) m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)
theorem W2_arg7 (c : Dev nD) : W2 (F := Ideal) m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)
theorem W2_arg8 (c : Dev nD) : W2 (F := Ideal) m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)
/-- The per-node reciprocal of the clipped in-degree, as a column, survives the first call. -/
theorem W2_recip (c : Dev nD) : W2 (F := Ideal) m ρ c (Proc.devRef .tc main_v8)
    = broadcastInDim S100000x1 ![0] bcast_S100000_S100000x1_0
        (Host.divf (F := Ideal) onesN (degree (m ((c : Thread nD τ).loc main_arg2)))) :=
  (W2_of_ne m ρ c main_v8 (by decide)).trans (by
    show StableHlo.after hostOps0 (W0 m ρ c) (Proc.devRef .tc main_v8) = _
    after_results_simp <;> rfl)

/-! ## What the second call finds -/

theorem V3_hidden (c : Dev nD) : V3 (F := Ideal) m ρ c main_v22
    = hiddenOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  show StableHlo.after hostOps1 (W2 m ρ c) (Proc.devRef .tc main_v22) = _
  after_results_simp
  exact hidden_eq m ρ c
theorem V3_arg6 (c : Dev nD) : V3 (F := Ideal) m ρ c main_arg6 = m ((c : Thread nD τ).loc main_arg6) := by
  show StableHlo.after hostOps1 (W2 m ρ c) (Proc.devRef .tc main_arg6) = _
  after_results_simp
  exact W2_arg6 m ρ c
theorem V3_arg7 (c : Dev nD) : V3 (F := Ideal) m ρ c main_arg7 = m ((c : Thread nD τ).loc main_arg7) := by
  show StableHlo.after hostOps1 (W2 m ρ c) (Proc.devRef .tc main_arg7) = _
  after_results_simp
  exact W2_arg7 m ρ c
/-- The second bias row. -/
theorem V3_bias (c : Dev nD) : V3 (F := Ideal) m ρ c main_v35
    = shapeCast S1x64 (m ((c : Thread nD τ).loc main_arg8)) shapeCasts_S64_S1x64 := by
  show StableHlo.after hostOps1 (W2 m ρ c) (Proc.devRef .tc main_v35) = _
  after_results_simp
  rw [W2_arg8]
  rfl
/-- The aggregated hidden features: the mean by the reciprocal of the hidden layer. -/
theorem V3_mean (c : Dev nD) : V3 (F := Ideal) m ρ c main_v34
    = meanByRecip (hiddenOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
        (m ((c : Thread nD τ).loc main_arg1)) (m ((c : Thread nD τ).loc main_arg2)) := by
  show StableHlo.after hostOps1 (W2 m ρ c) (Proc.devRef .tc main_v34) = _
  after_results_simp
  rw [hidden_eq, W2_arg1, W2_arg2, W2_recip]
  rfl

/-! ## The result -/

/-- What the result buffer holds at the end: the result of the launch arguments. -/
theorem result_eq (c : Dev nD) : W4 (F := Ideal) m ρ c (Proc.devRef .tc main_v36)
    = resultOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W4_arr m ρ c 5).trans ?_
  rw [Region1.final (V3 m ρ) c, V3_hidden, V3_mean, V3_arg6, V3_arg7, V3_bias, meanByRecip_eq_meanByQuot]
  rfl

end Cert.Sage.Run

end
-- ==== Proof.LibPlainDot.lean ====
/-
  A plain host matrix product read at an entry.

  For the dimension numbers of an ordinary product — an [a, n] array times an [n, b] array, contracting the second
  axis of the left with the first axis of the right, no batch axis — the host's `dot_general` is, on the extended
  reals, at (p, q) the sum over k of left (p, k) · right (k, q).  The extents are variables.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- The host's ordinary product: at (p, q) the sum over k of left (p, k) · right (k, q). -/
theorem host_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (dims wf) prec L R (ix2 p q) = ∑ k : Fin n, L (ix2 p k) * R (ix2 k q) := by
  show FloatOps.dotGeneral (dims wf) prec .single L R (ix2 p q) = _
  rw [Ideal.dotGeneral_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainDot

end
-- ==== Proof.RefSide.lean ====
/-
  The reference's result as the two dense updates over the mean aggregation.

  The reference computes, per layer, the mean of the neighbours' rows (summed rows divided by the clipped in-degree),
  then  x·Ws + mean·Wn + bias  by two host matrix products, and clips the first layer below at zero.  Read entry by
  entry on the extended reals a host matrix product is the plain sum over the contracted axis, so each layer is the
  dense update `Cert.Sage.layerRelu` / `layerLin` of its operands, the bias row being the bias vector seen as one row.
-/
import proofs.«136554_j31310311587980_1_alg».proof.Proof.Gen.ReferenceIdeal.Read
import proofs.«136554_j31310311587980_1_alg».proof.Proof.LibPlainDot
import proofs.«136554_j31310311587980_1_alg».proof.Proof.Dense
import proofs.«136554_j31310311587980_1_alg».proof.Proof.MeanAgg
import proofs.«136554_j31310311587980_1_alg».proof.Proof.Result
import Idealize.ShloMosaic.Lib.Pipeline.Value
import Idealize.ShloMosaic.Lib.ValueIdx
import Idealize.ShloMosaic.Lib.ValueLayout
import Idealize.ShloMosaic.Lib.IdealHost

noncomputable section

namespace Cert.Sage

open Idealize.ShloMosaic Idealize.ShloMosaic.TcCoe Idealize.ShloMosaic.ValueIdx

namespace Ref

open Cert.ReferenceIdeal Cert.ReferenceIdeal.Gen Cert.ReferenceIdeal.Read

/-- A bias vector repeated over all rows, [n] → [1, n] → [100000, n], read at (r, q), is entry q: width 128. -/
theorem bias128_apply (b : FVec Ideal S128 .f32) (r : Fin 100000) (q : Fin 128) :
    broadcastInDim S100000x128 ![0, 1] bcast_S1x128_S100000x128_0_1 (broadcastInDim S1x128 ![1] bcast_S128_S1x128_1 b) (ix2 r q)
      = b (ix1 q) := by
  rw [broadcastInDim_apply _ bcast_S1x128_S100000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The same at width 64. -/
theorem bias64_apply (b : FVec Ideal S64 .f32) (r : Fin 100000) (q : Fin 64) :
    broadcastInDim S100000x64 ![0, 1] bcast_S1x64_S100000x64_0_1 (broadcastInDim S1x64 ![1] bcast_S64_S1x64_1 b) (ix2 r q)
      = b (ix1 q) := by
  rw [broadcastInDim_apply _ bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-- The first layer as the reference spells it: two host products added, the bias added, the clip at zero. -/
def layer0 (X A : FVec Ideal S100000x128 .f32) (Ws Wn : FVec Ideal S128x128 .f32) (b : FVec Ideal S128 .f32) :
    FVec Ideal S100000x128 .f32 :=
  maximumf
    (addf
      (addf (Host.dotGeneral dot_S100000x128_S128x128_S100000x128_1_0_0_1_n_n none X Ws)
        (Host.dotGeneral dot_S100000x128_S128x128_S100000x128_1_0_0_1_n_n none A Wn))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The second layer as the reference spells it. -/
def layer1 (X A : FVec Ideal S100000x128 .f32) (Ws Wn : FVec Ideal S128x64 .f32) (b : FVec Ideal S64 .f32) :
    FVec Ideal S100000x64 .f32 :=
  addf
    (addf (Host.dotGeneral dot_S100000x128_S128x64_S100000x64_1_0_0_1_n_n none X Ws)
      (Host.dotGeneral dot_S100000x128_S128x64_S100000x64_1_0_0_1_n_n none A Wn))
    (broadcastInDim S100000x64 ![0, 1] bcast_S1x64_S100000x64_0_1 (broadcastInDim S1x64 ![1] bcast_S64_S1x64_1 b))

/-- The reference's first layer is the clipped dense update, the bias vector seen as one row. -/
theorem layer0_eq (X A : FVec Ideal S100000x128 .f32) (Ws Wn : FVec Ideal S128x128 .f32) (b : FVec Ideal S128 .f32) :
    layer0 X A Ws Wn b = layerRelu (a := 100000) (n := 128) (b := 128) X A Ws Wn
      (shapeCast Cert.KernelIdeal.S1x128 b Cert.KernelIdeal.Gen.shapeCasts_S128_S1x128) := by
  funext i
  obtain ⟨r, q, rfl⟩ : ∃ (r : Fin 100000) (q : Fin 128), i = ix2 r q := ⟨i 0, i 1, eq_ix2 i⟩
  rw [layerRelu_apply]
  unfold layer0 denseAt
  rw [maximumf_apply, addf_apply, addf_apply, bias128_apply,
    broadcastInDim_scalar_apply, constant_apply, shapeCast_a_1a_apply]
  refine congrArg₂ max (congrArg₂ (· + ·) (congrArg₂ (· + ·) ?_ ?_) rfl) rfl
  · exact Cert.PlainDot.host_apply dot_S100000x128_S128x128_S100000x128_1_0_0_1_n_n_wf none X Ws r q
  · exact Cert.PlainDot.host_apply dot_S100000x128_S128x128_S100000x128_1_0_0_1_n_n_wf none A Wn r q

/-- The reference's second layer is the dense update, the bias vector seen as one row. -/
theorem layer1_eq (X A : FVec Ideal S100000x128 .f32) (Ws Wn : FVec Ideal S128x64 .f32) (b : FVec Ideal S64 .f32) :
    layer1 X A Ws Wn b = layerLin (a := 100000) (n := 128) (b := 64) X A Ws Wn
      (shapeCast Cert.KernelIdeal.S1x64 b Cert.KernelIdeal.Gen.shapeCasts_S64_S1x64) := by
  funext i
  obtain ⟨r, q, rfl⟩ : ∃ (r : Fin 100000) (q : Fin 64), i = ix2 r q := ⟨i 0, i 1, eq_ix2 i⟩
  rw [layerLin_apply]
  unfold layer1 denseAt
  rw [addf_apply, addf_apply, bias64_apply, shapeCast_a_1a_apply]
  refine congrArg₂ (· + ·) (congrArg₂ (· + ·) ?_ ?_) rfl
  · exact Cert.PlainDot.host_apply dot_S100000x128_S128x64_S100000x64_1_0_0_1_n_n_wf none X Ws r q
  · exact Cert.PlainDot.host_apply dot_S100000x128_S128x64_S100000x64_1_0_0_1_n_n_wf none A Wn r q

/-- The reference's first mean is the mean by the quotient. -/
theorem mean0_eq (x0 : FVec Ideal S100000x128 .f32) (x1 x2 : IVec S1600000 32) :
    val_main_v18 (F := Ideal) x0 x1 x2 = meanByQuot x0 x1 x2 := rfl

/-- The reference's hidden layer. -/
theorem hidden_eq (x0 : FVec Ideal S100000x128 .f32) (x1 x2 : IVec S1600000 32) (x3 x4 : FVec Ideal S128x128 .f32)
    (x5 : FVec Ideal S128 .f32) :
    val_main_v25 (F := Ideal) x0 x1 x2 x3 x4 x5 = hiddenOf x0 x1 x2 x3 x4 x5 := by
  have e : val_main_v25 (F := Ideal) x0 x1 x2 x3 x4 x5 = layer0 x0 (val_main_v18 (F := Ideal) x0 x1 x2) x3 x4 x5 := rfl
  rw [e, mean0_eq, layer0_eq]
  rfl

/-- The reference's second mean is the mean by the quotient of its hidden layer. -/
theorem mean1_eq (x0 : FVec Ideal S100000x128 .f32) (x1 x2 : IVec S1600000 32) (x3 x4 : FVec Ideal S128x128 .f32)
    (x5 : FVec Ideal S128 .f32) :
    val_main_v44 (F := Ideal) x0 x1 x2 x3 x4 x5 = meanByQuot (val_main_v25 (F := Ideal) x0 x1 x2 x3 x4 x5) x1 x2 := rfl

/-- The reference's result. -/
theorem result_eq (x0 : FVec Ideal S100000x128 .f32) (x1 x2 : IVec S1600000 32) (x3 x4 : FVec Ideal S128x128 .f32)
    (x5 : FVec Ideal S128 .f32) (x6 x7 : FVec Ideal S128x64 .f32) (x8 : FVec Ideal S64 .f32) :
    val_main_v50 (F := Ideal) x0 x1 x2 x3 x4 x5 x6 x7 x8 = resultOf x0 x1 x2 x3 x4 x5 x6 x7 x8 := by
  have e : val_main_v50 (F := Ideal) x0 x1 x2 x3 x4 x5 x6 x7 x8
      = layer1 (val_main_v25 (F := Ideal) x0 x1 x2 x3 x4 x5) (val_main_v44 (F := Ideal) x0 x1 x2 x3 x4 x5) x6 x7 x8 := rfl
  rw [e, mean1_eq, hidden_eq, layer1_eq]
  rfl

end Ref

end Cert.Sage

end
-- ==== Proof.lean ====
/-
  A two-layer GraphSAGE with mean aggregation: the kernel program against its reference, on the extended reals.

  Both programs compute, per layer, for every node the mean of its in-neighbours' rows and then the dense update
  x·W_self + mean·W_neigh + b (the first layer clipped below at zero).  They differ in two ways.  The kernel program
  forms the reciprocal 1 / deg of the clipped in-degree deg = max(count, 1) once and multiplies the summed neighbour
  rows by it, where the reference divides them by deg; since deg is never zero the two are equal for every extended
  real (`Cert.Sage.meanByRecip_eq_meanByQuot`), and nothing about the inputs being finite is needed.  And the kernel
  program computes the dense update in two calls on a grid of 20 points, 5000 nodes each, with operands narrowed to
  bf16 and the matrix products accumulated onto zeros, where the reference uses whole host matrix products; on the
  extended reals both are the same sums over the contracted axis (`Cert.Sage.Region0.final`, `Region1.final`,
  `Cert.Sage.Ref.layer0_eq`, `layer1_eq`).  The gathers and scatter-adds are the same operations on both sides and
  are never opened.  The idealized kernel program is the kernel program's own text read on the extended reals (no
  rewrite was applied), so that conjunct is trivial; the three frames are the generated frame proofs and the
  reference's generated run.
-/
import proofs.«136554_j31310311587980_1_alg».proof.Defs
import proofs.«136554_j31310311587980_1_alg».proof.Proof.Gen.Kernel
import proofs.«136554_j31310311587980_1_alg».proof.Proof.Gen.Kernel.Frame
import proofs.«136554_j31310311587980_1_alg».proof.Proof.Gen.KernelIdeal
import proofs.«136554_j31310311587980_1_alg».proof.Proof.Gen.KernelIdeal.Frame
import proofs.«136554_j31310311587980_1_alg».proof.Proof.Gen.ReferenceIdeal
import proofs.«136554_j31310311587980_1_alg».proof.Proof.Gen.ReferenceIdeal.Run
import proofs.«136554_j31310311587980_1_alg».proof.Proof.Gen.ReferenceIdeal.Read
import proofs.«136554_j31310311587980_1_alg».proof.Proof.Gen.Pre_finite_inputs
import proofs.«136554_j31310311587980_1_alg».proof.Proof.RunRead
import proofs.«136554_j31310311587980_1_alg».proof.Proof.KernelRun
import proofs.«136554_j31310311587980_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at `Cert.Sage.resultOf` of arguments that agree. -/
theorem algebraic : Cert.algebraic_KernelIdeal_ReferenceIdeal := by
  intro m ρ m' ρ' _ hagree
  refine ⟨fun c => Cert.Sage.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Sage.Run.result_eq m ρ c), (h c).2⟩)
      (Cert.Sage.RunRead.run_read (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v50_eq, Cert.Sage.Ref.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
